-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4x16384 : Shape := ⟨3, ![512, 4, 16384]⟩
abbrev S_ : Shape := ⟨0, ![]⟩

class Facts : Prop where
  bcast_S_S512x4x16384 : S_.BroadcastsInDim S512x4x16384 (![] : Fin 0 → Fin S512x4x16384.rank)
  reducesTo_S512x4x16384_S_d0_1_2 : S512x4x16384.ReducesTo [0, 1, 2] S_
  h_S_ : 0 < S_.numel

variable [Facts]

def fn {F : FTy → Type} [FloatOps F] (main_arg0 : FVec F S512x4x16384 .f32) (main_arg1 : FVec F S512x4x16384 .f32) : IVec S_ 1 :=
  let main_v0 : FVec F S512x4x16384 .f32 := Host.absf main_arg0
  let main_cst : FVec F S_ .f32 := constant S_ .f32 0x7F800000#32
  let main_v1 : FVec F S512x4x16384 .f32 := broadcastInDim S512x4x16384 ![] bcast_S_S512x4x16384 main_cst
  let main_v2 : IVec S512x4x16384 1 := cmpf .olt main_v0 main_v1
  let main_c : IVec S_ 1 := constantI S_ 1 1#1
  let main_v3 : IVec S_ 1 := (fun x v => Host.reduce IntOp.andi x v reducesTo_S512x4x16384_S_d0_1_2 h_S_) main_v2 main_c
  let main_v4 : FVec F S512x4x16384 .f32 := Host.absf main_arg1
  let main_cst_0 : FVec F S_ .f32 := constant S_ .f32 0x7F800000#32
  let main_v5 : FVec F S512x4x16384 .f32 := broadcastInDim S512x4x16384 ![] bcast_S_S512x4x16384 main_cst_0
  let main_v6 : IVec S512x4x16384 1 := cmpf .olt main_v4 main_v5
  let main_c_1 : IVec S_ 1 := constantI S_ 1 1#1
  let main_v7 : IVec S_ 1 := (fun x v => Host.reduce IntOp.andi x v reducesTo_S512x4x16384_S_d0_1_2 h_S_) main_v6 main_c_1
  let main_v8 : IVec S_ 1 := andi main_v3 main_v7
  main_v8
-- ==== Kernel.lean ====
abbrev S512x4x16384 : Shape := ⟨3, ![512, 4, 16384]⟩
abbrev S2048x16384 : Shape := ⟨2, ![2048, 16384]⟩
abbrev S2048x1 : Shape := ⟨2, ![2048, 1]⟩
abbrev S64x16384 : Shape := ⟨2, ![64, 16384]⟩
abbrev S64x1 : Shape := ⟨2, ![64, 1]⟩
abbrev S64 : Shape := ⟨1, ![64]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S512x4x16384, .f32⟩
  | .hbm, ⟨1, _⟩ => ⟨S512x4x16384, .f32⟩
  | .hbm, ⟨2, _⟩ => ⟨S2048x16384, .f32⟩
  | .hbm, ⟨3, _⟩ => ⟨S2048x16384, .f32⟩
  | .hbm, ⟨4, _⟩ => ⟨S2048x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x1, .f32⟩
  | .local _ .vmem, ⟨5, _⟩ => ⟨S64x1, .f32⟩
  | _, _ => ⟨S512x4x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x4x16384_S2048x16384 : S512x4x16384.ShapeCasts S2048x16384
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  reduces_S64x16384_S64 : S64x16384.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S2048x16384.size a
  hwx0_0 : ∀ i : grid0.Coords, EltTy.bits .f32 = 32 ∨ (Rect.block (s := S2048x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S2048x16384.size a
  hwx0_1 : ∀ i : grid0.Coords, EltTy.bits .f32 = 32 ∨ (Rect.block (s := S2048x16384) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .f32 = 32 ∨ (Rect.block (s := S2048x1) S64x1.size (cc0_transform_2 i) (hinb0_2 i)).WholeWords (EltTy.packing .f32)

variable [Facts₀]

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4x16384 : Shape := ⟨3, ![512, 4, 16384]⟩
abbrev S_ : Shape := ⟨0, ![]⟩
abbrev S512x4 : Shape := ⟨2, ![512, 4]⟩

abbrev nBuf : Space → Nat
  | .hbm => 49
  | .vmem => 0
  | .smem => 0
  | _ => 0

abbrev bufTy : (tb : Table) → Fin (tcTables nBuf tb) → BufTy
  | .hbm, ⟨0, _⟩ => ⟨S512x4x16384, .f32⟩
  | .hbm, ⟨1, _⟩ => ⟨S512x4x16384, .f32⟩
  | .hbm, ⟨2, _⟩ => ⟨S_, .f32⟩
  | .hbm, ⟨3, _⟩ => ⟨S512x4, .f32⟩
  | .hbm, ⟨4, _⟩ => ⟨S_, .f32⟩
  | .hbm, ⟨5, _⟩ => ⟨S512x4, .f32⟩
  | .hbm, ⟨6, _⟩ => ⟨S512x4x16384, .f32⟩
  | .hbm, ⟨7, _⟩ => ⟨S_, .f32⟩
  | .hbm, ⟨8, _⟩ => ⟨S512x4, .f32⟩
  | .hbm, ⟨9, _⟩ => ⟨S512x4x16384, .f32⟩
  | .hbm, ⟨10, _⟩ => ⟨S_, .f32⟩
  | .hbm, ⟨11, _⟩ => ⟨S512x4, .f32⟩
  | .hbm, ⟨12, _⟩ => ⟨S512x4x16384, .f32⟩
  | .hbm, ⟨13, _⟩ => ⟨S_, .f32⟩
  | .hbm, ⟨14, _⟩ => ⟨S512x4, .f32⟩
  | .hbm, ⟨15, _⟩ => ⟨S_, .f32⟩
  | .hbm, ⟨16, _⟩ => ⟨S512x4, .f32⟩
  | .hbm, ⟨17, _⟩ => ⟨S512x4, .f32⟩
  | .hbm, ⟨18, _⟩ => ⟨S512x4, .f32⟩
  | .hbm, ⟨19, _⟩ => ⟨S512x4, .f32⟩
  | .hbm, ⟨20, _⟩ => ⟨S_, .f32⟩
  | .hbm, ⟨21, _⟩ => ⟨S512x4, .f32⟩
  | .hbm, ⟨22, _⟩ => ⟨S512x4, .f32⟩
  | .hbm, ⟨23, _⟩ => ⟨S512x4, .f32⟩
  | .hbm, ⟨24, _⟩ => ⟨S512x4, .f32⟩
  | .hbm, ⟨25, _⟩ => ⟨S_, .f32⟩
  | .hbm, ⟨26, _⟩ => ⟨S512x4, .f32⟩
  | .hbm, ⟨27, _⟩ => ⟨S512x4, .f32⟩
  | .hbm, ⟨28, _⟩ => ⟨S512x4, .f32⟩
  | .hbm, ⟨29, _⟩ => ⟨S512x4, .f32⟩
  | .hbm, ⟨30, _⟩ => ⟨S512x4, .f32⟩
  | .hbm, ⟨31, _⟩ => ⟨S512x4, .f32⟩
  | .hbm, ⟨32, _⟩ => ⟨S512x4, .f32⟩
  | .hbm, ⟨33, _⟩ => ⟨S_, .f32⟩
  | .hbm, ⟨34, _⟩ => ⟨S512x4, .f32⟩
  | .hbm, ⟨35, _⟩ => ⟨S512x4, .i1⟩
  | .hbm, ⟨36, _⟩ => ⟨S512x4, .f32⟩
  | .hbm, ⟨37, _⟩ => ⟨S_, .f32⟩
  | .hbm, ⟨38, _⟩ => ⟨S512x4, .f32⟩
  | .hbm, ⟨39, _⟩ => ⟨S512x4, .f32⟩
  | .hbm, ⟨40, _⟩ => ⟨S512x4, .f32⟩
  | .hbm, ⟨41, _⟩ => ⟨S_, .f32⟩
  | .hbm, ⟨42, _⟩ => ⟨S512x4, .f32⟩
  | .hbm, ⟨43, _⟩ => ⟨S512x4, .f32⟩
  | .hbm, ⟨44, _⟩ => ⟨S512x4, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S512x4x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  reducesTo_S512x4x16384_S512x4_d2 : S512x4x16384.ReducesTo [2] S512x4
  h_S_ : 0 < S_.numel
  bcast_S_S512x4 : S_.BroadcastsInDim S512x4 (![] : Fin 0 → Fin S512x4.rank)
  reducesTo_S512x4_S_d0_1 : S512x4.ReducesTo [0, 1] S_

variable [Facts₀]

class Facts : Prop extends Facts₀ where

variable [Facts]
-- ==== Proof.Spec.lean ====
/-
  The loss both programs compute, as one function of the two argument arrays.

  The arguments are two arrays of 512 x 4 rows of 16384 samples.  For one row with samples x, y the programs form the five
  sums  Σx, Σy, Σxy, Σx², Σy²,  then Pearson's correlation
      r = (n·Σxy − Σx·Σy) / √((n·Σx² − (Σx)²)·(n·Σy² − (Σy)²)),     n = 16384,
  and the row's loss  1 − r²  where r ≥ 0  and  1 + r²  elsewhere.  The result is the mean of the 2048 row losses: their sum
  divided by 2048.  Everything is read on the extended reals, where a sum is independent of the order of its terms; the only
  law the comparison of the two programs needs is that a sum over the 2048 rows r = 4·b + c is the double sum over b and c.
-/
import Idealize.ShloMosaic.PureOps.Ideal
import Idealize.ShloMosaic.PureOps.Ideal.Laws
import Idealize.ShloMosaic.Lib.ValueIdx

noncomputable section

open Idealize.ShloMosaic

namespace Cert.NegPearson

/-- The number of samples of a row, 16384, as the f32 word both programs carry. -/
abbrev nSamples : EReal := Ideal.ofBits .f32 0x46800000#32
/-- The f32 word of 1. -/
abbrev oneW : EReal := Ideal.ofBits .f32 0x3F800000#32
/-- The f32 word of 0. -/
abbrev zeroW : EReal := Ideal.ofBits .f32 0x00000000#32
/-- The number of rows, 2048, as the f32 word both programs carry. -/
abbrev nRows : EReal := Ideal.ofBits .f32 0x45000000#32

/-- Pearson's correlation from a row's five sums. -/
def corr (sx sy sxy sxx syy : EReal) : EReal :=
  Ideal.div (nSamples * sxy - sx * sy) (Ideal.sqrt ((nSamples * sxx - sx * sx) * (nSamples * syy - sy * sy)))

/-- The loss of a correlation r: 1 − r² where r ≥ 0, 1 + r² elsewhere. -/
def lossOf (r : EReal) : EReal :=
  Scalar.select (Ideal.cmp .oge r zeroW) (oneW - r * r) (oneW + r * r)

/-- The loss of one row of samples. -/
def rowLoss (x y : Fin 16384 → EReal) : EReal :=
  lossOf (corr (∑ k, x k) (∑ k, y k) (∑ k, x k * y k) (∑ k, x k * x k) (∑ k, y k * y k))

/-- The mean over the 512 x 4 rows of a family of row losses. -/
def meanLoss (f : Fin 512 → Fin 4 → EReal) : EReal :=
  Ideal.div (∑ b, ∑ c, f b c) nRows

/-- The result: the mean row loss of the two argument arrays. -/
def result (a0 a1 : (⟨3, ![512, 4, 16384]⟩ : Shape).Idx → EReal) : EReal :=
  meanLoss fun b c => rowLoss (fun k => a0 (ValueIdx.ix3 b c k)) (fun k => a1 (ValueIdx.ix3 b c k))

/-- The column of row losses of two arrays of 2048 rows of 16384 samples (the arguments with their first two axes
    flattened): entry (r, 0) is the loss of row r. -/
def lossCol (X Y : (⟨2, ![2048, 16384]⟩ : Shape).Idx → EReal) : (⟨2, ![2048, 1]⟩ : Shape).Idx → EReal :=
  fun i => rowLoss (fun k => X (ValueIdx.ix2 (i 0) k)) (fun k => Y (ValueIdx.ix2 (i 0) k))

/-- A sum over the 2048 rows, numbered r = 4·b + c, is the double sum over b and c. -/
theorem sum_rows {M : Type*} [AddCommMonoid M] (g : Fin 2048 → M) :
    ∑ r : Fin 2048, g r = ∑ b : Fin 512, ∑ c : Fin 4, g ⟨4 * b.val + c.val, by omega⟩ := by
  rw [← Fintype.sum_prod_type']
  refine (Fintype.sum_equiv (finProdFinEquiv (m := 512) (n := 4)) _ _ fun p => ?_).symm
  refine congrArg g (Fin.ext ?_)
  show 4 * p.1.val + p.2.val = p.2.val + 4 * p.1.val
  omega

end Cert.NegPearson

end
-- ==== Proof.KernelRow.lean ====
/-
  What the kernel's body stores, read at an index: entry (p, 0) of the stored 64 x 1 block is the row loss of row p of the
  two loaded 64 x 16384 blocks.  Each of the body's five lane reductions, read at row p, is the sum over the lanes k of its
  operand at (p, k); every operation between the reductions and the select is pointwise over the 64 rows; the final cast
  from 64 to 64 x 1 keeps the row-major position.
-/
import proofs.«161521_j25726854103345_2_alg».proof.Proof.Gen.KernelIdeal.Skeleton
import proofs.«161521_j25726854103345_2_alg».proof.Proof.Spec
import Idealize.ShloMosaic.Lib.ValueIdx
import Idealize.ShloMosaic.Lib.Pipeline.Value
import Idealize.ShloMosaic.PureOps.Ideal.Laws

noncomputable section

namespace Cert.NegPearson.Ker

open Idealize.ShloMosaic Idealize.ShloMosaic.ValueIdx
open Cert.KernelIdeal Cert.KernelIdeal.Gen Cert.NegPearson

/-- A lane reduction of a 64 x 16384 block, read at row p, is the sum over the lanes of that row. -/
theorem lane_sum (v : FVec Ideal S64x16384 .f32) (h : S64x16384.Reduces [1] S64) (hφ : FKind.Formats .f32)
    (hacc : (0x00000000#32 : BitVec 32) = 0x00000000#32) (p : Fin 64) :
    multiReduction .add [1] S64 v 0x00000000#32 h hφ hacc (ix1 p) = ∑ k : Fin 16384, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

/-- The same for a product of two blocks. -/
theorem lane_sum_mul (u v : FVec Ideal S64x16384 .f32) (h : S64x16384.Reduces [1] S64) (hφ : FKind.Formats .f32)
    (hacc : (0x00000000#32 : BitVec 32) = 0x00000000#32) (p : Fin 64) :
    multiReduction .add [1] S64 (mulf u v) 0x00000000#32 h hφ hacc (ix1 p) = ∑ k : Fin 16384, u (ix2 p k) * v (ix2 p k) :=
  lane_sum (mulf u v) h hφ hacc p

theorem sqrt_at {s : Shape} (a : FVec Ideal s .f32) (i : s.Idx) : sqrt a i = Ideal.sqrt (a i) := rfl
theorem cmp_at (p : CmpFPredicate) (x y : EReal) : FloatOps.cmpf (F := Ideal) (φ := .f32) p x y = Ideal.cmp p x y := rfl

/-- The stored block at (p, 0): the row loss of row p of the two loaded blocks. -/
theorem pay_at (x y : Vec Ideal S64x16384 .f32) (p : Fin 64) (q : Fin 1) :
    k0_pay1 (F := Ideal) x y (ix2 p q) = rowLoss (fun k => x (ix2 p k)) (fun k => y (ix2 p k)) := by
  unfold k0_pay1
  dsimp only
  refine (shapeCast_apply _ _ (ix2 p q) (ix1 p) ?_).trans ?_
  · rw [Shape.rowMajor_val_one, Shape.rowMajor_val_two]
    have hq := q.isLt
    show p.val = p.val * 1 + q.val
    omega
  · simp only [shapeCast_self, select_apply, cmpf_apply, subf_apply, mulf_apply, addf_apply, divf_apply, sqrt_at,
      broadcast_apply, Ideal.ofBits_def, cmp_at]
    unfold rowLoss lossOf corr
    dsimp only
    rw [← lane_sum x reduces_S64x16384_S64 (.inl rfl) rfl p, ← lane_sum y reduces_S64x16384_S64 (.inl rfl) rfl p,
      ← lane_sum_mul x y reduces_S64x16384_S64 (.inl rfl) rfl p, ← lane_sum_mul x x reduces_S64x16384_S64 (.inl rfl) rfl p,
      ← lane_sum_mul y y reduces_S64x16384_S64 (.inl rfl) rfl p]

/-- A stored block as a block of the loss column.  When row u of the loaded blocks x, y is row 64·n + u of the arrays X, Y,
    entry j of the stored block is the loss column of X, Y at row 64·n + j. -/
theorem block_entry (x y : Vec Ideal S64x16384 .f32) (X Y : (⟨2, ![2048, 16384]⟩ : Shape).Idx → EReal) (n : Nat)
    (hx : ∀ (u : S64x16384.Idx) (i : (⟨2, ![2048, 16384]⟩ : Shape).Idx),
      (i 0).val = 64 * n + (u 0).val → (i 1).val = (u 1).val → x u = X i)
    (hy : ∀ (u : S64x16384.Idx) (i : (⟨2, ![2048, 16384]⟩ : Shape).Idx),
      (i 0).val = 64 * n + (u 0).val → (i 1).val = (u 1).val → y u = Y i)
    (j : S64x1.Idx) (i : (⟨2, ![2048, 1]⟩ : Shape).Idx) (hi : (i 0).val = 64 * n + (j 0).val) :
    k0_pay1 (F := Ideal) x y j = lossCol X Y i := by
  obtain ⟨p, q, rfl⟩ : ∃ (p : Fin 64) (q : Fin 1), j = ix2 p q := ⟨j 0, j 1, eq_ix2 j⟩
  rw [pay_at]
  unfold lossCol
  exact congrArg₂ rowLoss (funext fun k => hx (ix2 p k) (ix2 (i 0) k) hi rfl) (funext fun k => hy (ix2 p k) (ix2 (i 0) k) hi rfl)

end Cert.NegPearson.Ker

end
-- ==== Proof.Mean.lean ====
/-
  The mean of the loss column of the flattened arguments is the result.

  Flattening the first two axes keeps the row-major position, so row 4·b + c of a flattened argument is its row (b, c).  The
  sum of the 2048 x 1 column over all of its indices is the sum over its 2048 rows (the second axis has one coordinate), and
  that is the double sum over b and c of the row losses; both programs then divide by 2048.
-/
import proofs.«161521_j25726854103345_2_alg».proof.Proof.Spec
import Idealize.ShloMosaic.PureOps.Ideal.Laws
import Idealize.ShloMosaic.Lib.Pipeline.Value
import Idealize.ShloMosaic.Lib.ValueIdx

noncomputable section

namespace Cert.NegPearson

open Idealize.ShloMosaic Idealize.ShloMosaic.ValueIdx

/-- A flattened argument read at (4·b + c, k) is the argument at (b, c, k). -/
theorem flat_at (a : (⟨3, ![512, 4, 16384]⟩ : Shape).Idx → EReal)
    (h : (⟨3, ![512, 4, 16384]⟩ : Shape).ShapeCasts ⟨2, ![2048, 16384]⟩)
    (b : Fin 512) (c : Fin 4) (k : Fin 16384) (r : Fin 2048) (hr : r.val = 4 * b.val + c.val) :
    shapeCast ⟨2, ![2048, 16384]⟩ a h (ix2 r k) = a (ix3 b c k) := by
  refine shapeCast_apply a h (ix2 r k) (ix3 b c k) ?_
  rw [Shape.rowMajor_val_three, Shape.rowMajor_val_two]
  show (b.val * 4 + c.val) * 16384 + k.val = r.val * 16384 + k.val
  rw [hr]
  omega

/-- The sum of the loss column of the flattened arguments, divided by 2048, is the result. -/
theorem mean_col (a0 a1 : (⟨3, ![512, 4, 16384]⟩ : Shape).Idx → EReal)
    (h : (⟨3, ![512, 4, 16384]⟩ : Shape).ShapeCasts ⟨2, ![2048, 16384]⟩)
    (h' : (⟨2, ![2048, 1]⟩ : Shape).ReducesTo [0, 1] ⟨0, ![]⟩) (hu : 0 < (⟨0, ![]⟩ : Shape).numel)
    (i : (⟨0, ![]⟩ : Shape).Idx) :
    Host.divf (F := Ideal) (φ := .f32)
        (Host.reduceAdd (F := Ideal) (lossCol (shapeCast ⟨2, ![2048, 16384]⟩ a0 h) (shapeCast ⟨2, ![2048, 16384]⟩ a1 h))
          (constant (F := Ideal) ⟨0, ![]⟩ .f32 0x00000000#32) h' hu)
        (constant (F := Ideal) ⟨0, ![]⟩ .f32 0x45000000#32) i
      = result a0 a1 := by
  show Ideal.div (Ideal.hostReduceAdd h' (lossCol (shapeCast ⟨2, ![2048, 16384]⟩ a0 h) (shapeCast ⟨2, ![2048, 16384]⟩ a1 h))
      (Ideal.ofBits .f32 0x00000000#32) i) (Ideal.ofBits .f32 0x45000000#32) = _
  rw [Ideal.hostReduceAdd_total h' (fun b => b.elim0) _ _ i, Ideal.ofBits_zero_f32, zero_add, sum_idx2]
  simp only [Fin.sum_univ_one]
  rw [sum_rows]
  unfold result meanLoss
  refine congrArg (Ideal.div · nRows) (Finset.sum_congr rfl fun b _ => Finset.sum_congr rfl fun c _ => ?_)
  unfold lossCol
  exact congrArg₂ rowLoss (funext fun k => flat_at a0 h b c k _ rfl) (funext fun k => flat_at a1 h b c k _ rfl)

end Cert.NegPearson

end
-- ==== Proof.KernelArray.lean ====
/-
  The kernel's run, read.

  The region finds the two arguments flattened to 2048 rows.  Grid point t loads rows 64·t … 64·t + 63 of both and writes
  back rows 64·t … 64·t + 63 of the output column, which are the losses of those rows; the 32 points' blocks tile the
  column, so after the region the output array is the loss column of the flattened arguments.  The operations after the
  region sum the column and divide by 2048: the result is the mean row loss.
-/
import proofs.«161521_j25726854103345_2_alg».proof.Proof.Gen.KernelIdeal.Frame
import proofs.«161521_j25726854103345_2_alg».proof.Proof.KernelRow
import proofs.«161521_j25726854103345_2_alg».proof.Proof.Mean
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.NegPearson.Ker

open Cert.KernelIdeal Cert.KernelIdeal.Gen Cert.NegPearson Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The three index maps over the grid: point t's blocks are block row t of each array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first operand as the region finds it: the first argument, flattened. -/
theorem V_flat0 (c : Dev nD) : (V m c main_v0 : S2048x16384.Idx → EReal)
    = shapeCast S2048x16384 (m ((c : Thread nD τ).loc main_arg0)) shapeCasts_S512x4x16384_S2048x16384 := by
  show StableHlo.after hostOps0 (fun b => m (c, b)) (Proc.devRef .tc main_v0) = _
  after_results
  rfl

/-- The second operand as the region finds it: the second argument, flattened. -/
theorem V_flat1 (c : Dev nD) : (V m c main_v1 : S2048x16384.Idx → EReal)
    = shapeCast S2048x16384 (m ((c : Thread nD τ).loc main_arg1)) shapeCasts_S512x4x16384_S2048x16384 := by
  show StableHlo.after hostOps0 (fun b => m (c, b)) (Proc.devRef .tc main_v1) = _
  after_results
  rfl

/-- Row u of the first input block at point t is row 64·t + u of the first operand. -/
theorem iblk0_at (c : Dev nD) (t : Fin cfg0.N) (u : S64x16384.Idx) (i : S2048x16384.Idx)
    (h0 : (i 0).val = 64 * t.val + (u 0).val) (h1 : (i 1).val = (u 1).val) :
    (iblk m c 0 t : Vec Ideal S64x16384 .f32) u = (V m c main_v0 : S2048x16384.Idx → EReal) i := by
  obtain ⟨e00, e01, -, -, -, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 64 + 1 * (u 0).val = (i 0).val; rw [e00, h0]; omega
  | ⟨1, _⟩ => show win0_0.index t (1 : Fin 2) * 16384 + 1 * (u 1).val = (i 1).val; rw [e01, h1]; omega

/-- Row u of the second input block at point t is row 64·t + u of the second operand. -/
theorem iblk1_at (c : Dev nD) (t : Fin cfg0.N) (u : S64x16384.Idx) (i : S2048x16384.Idx)
    (h0 : (i 0).val = 64 * t.val + (u 0).val) (h1 : (i 1).val = (u 1).val) :
    (iblk m c 1 t : Vec Ideal S64x16384 .f32) u = (V m c main_v1 : S2048x16384.Idx → EReal) i := by
  obtain ⟨-, -, e10, e11, -, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 64 + 1 * (u 0).val = (i 0).val; rw [e10, h0]; omega
  | ⟨1, _⟩ => show win0_1.index t (1 : Fin 2) * 16384 + 1 * (u 1).val = (i 1).val; rw [e11, h1]; omega

/-- Block t of a column, read at j, is the column at the array index of j. -/
theorem read_at (G : (⟨2, ![2048, 1]⟩ : Shape).Idx → EReal) (t : Fin cfg0.N) (j : ((cfg0.win 2).xblock (grid0.coords t)).Idx) :
    ((cfg0.win 2).blk t).view.read (Elt Ideal) G j = G (((cfg0.win 2).blk t).view.emb j) := rfl

/-- What point t writes back is block t of the loss column of the two operands. -/
theorem flushed_eq (c : Dev nD) (t : Fin cfg0.N) :
    (dats m 0 c).flushed 2 t
      = ((cfg0.win 2).blk t).view.read (Elt Ideal) (lossCol (V m c main_v0) (V m c main_v1)) := by
  show (cfg0.win 2).cut (grid0.coords t) ((dats m 0 c).after 2 t) = _
  rw [after0_2]
  unfold out0_2
  rw [View.canon_unit_zero hz]
  simp only [View.ld_unit_zero (S := S64x16384) hz]
  obtain ⟨-, -, -, -, e20, -⟩ := idx_facts t
  funext j
  rw [read_at]
  refine block_entry (iblk m c 0 t) (iblk m c 1 t) (V m c main_v0) (V m c main_v1) t.val (iblk0_at m c t) (iblk1_at m c t)
    ((cfg0.win 2).xinj (grid0.coords t) j) (((cfg0.win 2).blk t).view.emb j) ?_
  show win0_2.index t (0 : Fin 2) * 64 + 1 * (j 0).val = 64 * t.val + (j 0).val
  rw [e20]
  omega

/-- An index of the output column is in point t's block iff each coordinate is in the block's range on its axis. -/
theorem mem_blk (t : Fin cfg0.N) (i : S2048x1.Idx) :
    i ∈ ((cfg0.win 2).blk t).view.set
      ↔ ∀ a : Fin 2, win0_2.index t a * S64x1.size a ≤ (i a).val ∧ (i a).val < win0_2.index t a * S64x1.size a + S64x1.size a := by
  show i ∈ ((View.whole main_v2).slice (win0_2.rect t)).set ↔ _
  rw [View.set_slice_whole, Rect.mem_set_unit]
  exact Iff.rfl

/-- Row r of the column is in the block of point r / 64. -/
theorem cover (i : S2048x1.Idx) : ∃ t : Fin cfg0.N, (cfg0.win 2).flush t = true ∧ i ∈ ((cfg0.win 2).blk t).view.set := by
  have h0 : (i 0).val < 2048 := (i 0).isLt
  have h1 : (i 1).val < 1 := (i 1).isLt
  have hN : cfg0.N = 32 := N_0
  have ht : (i 0).val / 64 < cfg0.N := by rw [hN]; omega
  obtain ⟨-, -, -, -, e20, e21⟩ := idx_facts ⟨(i 0).val / 64, ht⟩
  refine ⟨⟨(i 0).val / 64, ht⟩, flush0_2 _, ?_⟩
  rw [mem_blk]
  intro a
  match a with
  | ⟨0, _⟩ =>
    show win0_2.index ⟨(i 0).val / 64, ht⟩ (0 : Fin 2) * 64 ≤ (i 0).val
      ∧ (i 0).val < win0_2.index ⟨(i 0).val / 64, ht⟩ (0 : Fin 2) * 64 + 64
    rw [e20]
    show (i 0).val / 64 * 64 ≤ (i 0).val ∧ (i 0).val < (i 0).val / 64 * 64 + 64
    omega
  | ⟨1, _⟩ =>
    show win0_2.index ⟨(i 0).val / 64, ht⟩ (1 : Fin 2) * 1 ≤ (i 1).val
      ∧ (i 1).val < win0_2.index ⟨(i 0).val / 64, ht⟩ (1 : Fin 2) * 1 + 1
    rw [e21]
    omega

/-- After the region the output array is the loss column of the two operands. -/
theorem column (c : Dev nD) : (dats m 0 c).arrAt 2 cfg0.N = lossCol (V m c main_v0) (V m c main_v1) :=
  (dats m 0 c).arrAt_eq_of_cover 2 (lossCol (V m c main_v0) (V m c main_v1)) (fun t _ => flushed_eq m c t) cover

end Cert.NegPearson.Ker

end
-- ==== Proof.KernelRun.lean ====
/-
  The kernel's program, run: its result is the mean row loss of its two arguments, and the arguments end unchanged.

  After the region the output array is the loss column of the flattened arguments; the operations after the region sum the
  column over all of its indices and divide by 2048.
-/
import proofs.«161521_j25726854103345_2_alg».proof.Proof.KernelArray

noncomputable section

open Idealize.ShloMosaic Idealize.ShloMosaic.TcCoe Idealize.SL.Sem
open Idealize.ShloMosaic.Pipeline (Dat)

namespace Cert.NegPearson.Ker

open Cert.KernelIdeal Cert.KernelIdeal.Gen Cert.NegPearson Idealize.ShloMosaic.ValueIdx

variable (m : (ℓ : Loc nD τ sig) → Buf (Elt Ideal) ℓ) (ρ : Dev nD → PrngReg)

/-- What the operations after the region leave in the result buffer. -/
theorem value (c : Dev nD) :
    Pipeline.afterTail₀ cfgs (dats m) 0 (V0 m) [hostOps1] c main_v4
      = (fun _ => result (m ((c.tc : Thread nD τ).loc main_arg0)) (m ((c.tc : Thread nD τ).loc main_arg1))) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = lossCol (V m c main_v0) (V m c main_v1) :=
    (Pipeline.withArrays_arr spec0 launch0.win.arr_inj c _ _ 2).trans (column m c)
  rw [e, V_flat0, V_flat1]
  funext i
  exact mean_col _ _ _ _ _ i

/-- Every weakly fair execution of the kernel's program ends with the result buffer at the mean row loss of the two
    arguments, and the arguments as they were. -/
theorem run : θ_run defs (onTc (τ := τ) (main (F := Ideal))) ⟨m, fun _ => 0, ρ⟩ fun r => ∀ c : Dev nD,
      r.2.mem ((c.tc : Thread nD τ).loc main_v4)
        = (fun _ => result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.NegPearson.Ker

end
-- ==== Proof.RefSide.lean ====
/-
  The reference, read stage by stage, is the mean row loss of its two arguments.

  Each of its five sums over the last axis, read at row (b, c), is the sum over k of the operand at (b, c, k) (the initial
  value is the zero word); the stages between the sums and the select are pointwise, so row (b, c) of the selected array is
  the row loss of the rows (b, c, ·) of the two arguments; the last two stages sum that array over all of its indices — the
  double sum over b and c — and divide by 2048.
-/
import proofs.«161521_j25726854103345_2_alg».proof.Proof.Gen.ReferenceIdeal.Read
import proofs.«161521_j25726854103345_2_alg».proof.Proof.Spec
import Idealize.ShloMosaic.Lib.ValueIdx

noncomputable section

namespace Cert.NegPearson.Ref

open Idealize.ShloMosaic Idealize.ShloMosaic.ValueIdx
open Cert.ReferenceIdeal Cert.ReferenceIdeal.Gen Cert.ReferenceIdeal.Read Cert.NegPearson

variable (a0 a1 : (⟨S512x4x16384, .f32⟩ : BufTy).Contents (Elt Ideal))

/-- A sum over the last axis, read at row (b, c): the initial zero plus the operand's row (b, c, ·) summed. -/
theorem row_sum (z : (⟨S_, .f32⟩ : BufTy).Contents (Elt Ideal)) (hz : z (Shape.Idx.first h_S_) = Ideal.ofBits .f32 0x00000000#32)
    (x : (⟨S512x4x16384, .f32⟩ : BufTy).Contents (Elt Ideal)) (idx : S512x4.Idx → Fin 16384 → S512x4x16384.Idx)
    (b : Fin 512) (c : Fin 4) (hidx : ∀ k, idx (ix2 b c) k = ix3 b c k) (f : Fin 16384 → EReal) (hf : ∀ k, x (ix3 b c k) = f k) :
    z (Shape.Idx.first h_S_) + ∑ k : Fin 16384, x (idx (ix2 b c) k) = ∑ k, f k := by
  rw [hz, Ideal.ofBits_zero_f32, zero_add]
  exact Finset.sum_congr rfl fun k _ => by rw [hidx k, hf k]

theorem idx_eq (b : Fin 512) (c : Fin 4) (k : Fin 16384) : idx_main_v0 (ix2 b c) k = ix3 b c k :=
  funext fun a => Fin.ext (by match a with | ⟨0, _⟩ => rfl | ⟨1, _⟩ => rfl | ⟨2, _⟩ => rfl)

theorem sum_x (b : Fin 512) (c : Fin 4) : val_main_v0 (F := Ideal) a0 (ix2 b c) = ∑ k, a0 (ix3 b c k) :=
  (val_main_v0_apply a0 (ix2 b c)).trans (row_sum _ rfl a0 _ b c (idx_eq b c) _ fun _ => rfl)

theorem sum_y (b : Fin 512) (c : Fin 4) : val_main_v1 (F := Ideal) a1 (ix2 b c) = ∑ k, a1 (ix3 b c k) :=
  (val_main_v1_apply a1 (ix2 b c)).trans (row_sum _ rfl a1 _ b c (idx_eq b c) _ fun _ => rfl)

theorem sum_xy (b : Fin 512) (c : Fin 4) :
    val_main_v3 (F := Ideal) a0 a1 (ix2 b c) = ∑ k, a0 (ix3 b c k) * a1 (ix3 b c k) :=
  (val_main_v3_apply a0 a1 (ix2 b c)).trans (row_sum _ rfl _ _ b c (idx_eq b c) _ fun _ => rfl)

theorem sum_xx (b : Fin 512) (c : Fin 4) :
    val_main_v5 (F := Ideal) a0 (ix2 b c) = ∑ k, a0 (ix3 b c k) * a0 (ix3 b c k) :=
  (val_main_v5_apply a0 (ix2 b c)).trans (row_sum _ rfl _ _ b c (idx_eq b c) _ fun _ => rfl)

theorem sum_yy (b : Fin 512) (c : Fin 4) :
    val_main_v7 (F := Ideal) a1 (ix2 b c) = ∑ k, a1 (ix3 b c k) * a1 (ix3 b c k) :=
  (val_main_v7_apply a1 (ix2 b c)).trans (row_sum _ rfl _ _ b c (idx_eq b c) _ fun _ => rfl)

/-- The quotient stage at row (b, c) is the correlation of the rows (b, c, ·). -/
theorem corr_at (b : Fin 512) (c : Fin 4) :
    val_main_v22 (F := Ideal) a0 a1 (ix2 b c)
      = corr (∑ k, a0 (ix3 b c k)) (∑ k, a1 (ix3 b c k)) (∑ k, a0 (ix3 b c k) * a1 (ix3 b c k))
          (∑ k, a0 (ix3 b c k) * a0 (ix3 b c k)) (∑ k, a1 (ix3 b c k) * a1 (ix3 b c k)) := by
  rw [val_main_v22_apply]
  rw [val_main_v11_apply]
  rw [val_main_v21_apply, val_main_v20_apply, val_main_v9_apply, val_main_v10_apply]
  rw [val_main_v15_apply, val_main_v19_apply, val_main_v13_apply, val_main_v14_apply, val_main_v17_apply, val_main_v18_apply]
  rw [sum_x, sum_y, sum_xy, sum_xx, sum_yy, val_main_v8_apply, val_main_v12_apply, val_main_v16_apply,
    val_main_cst_4_apply, val_main_cst_5_apply, val_main_cst_6_apply]
  simp only [Ideal.hostDivf_def, Ideal.subf_def, Ideal.mulf_def, Ideal.hostUnary_sqrt_def, Ideal.ofBits_def]
  unfold corr
  rfl

/-- The selected stage at row (b, c) is the row loss of the rows (b, c, ·). -/
theorem loss_at (b : Fin 512) (c : Fin 4) :
    val_main_v31 (F := Ideal) a0 a1 (ix2 b c) = rowLoss (fun k => a0 (ix3 b c k)) (fun k => a1 (ix3 b c k)) := by
  rw [val_main_v31_apply, val_main_v24_apply, val_main_v27_apply, val_main_v30_apply, val_main_v25_apply, val_main_v28_apply,
    corr_at, val_main_v23_apply, val_main_v26_apply, val_main_v29_apply, val_main_cst_7_apply, val_main_cst_8_apply,
    val_main_cst_9_apply]
  simp only [Ideal.subf_def, Ideal.addf_def, Ideal.mulf_def, Ideal.ofBits_def]
  unfold rowLoss lossOf
  rfl

/-- The reference's last stage is the mean row loss. -/
theorem stage_eq (i : S_.Idx) : val_main_v33 (F := Ideal) a0 a1 i = result a0 a1 := by
  rw [val_main_v33_apply, val_main_v32_apply]
  show Ideal.div (Ideal.ofBits .f32 0x00000000#32 + ∑ j : S512x4.Idx, val_main_v31 (F := Ideal) a0 a1 j) (Ideal.ofBits .f32 0x45000000#32) = _
  rw [Ideal.ofBits_zero_f32, zero_add, sum_idx2]
  unfold result meanLoss
  refine congrArg (Ideal.div · nRows) (Finset.sum_congr rfl fun b _ => Finset.sum_congr rfl fun c _ => ?_)
  exact loss_at a0 a1 b c

end Cert.NegPearson.Ref

end
-- ==== Proof.lean ====
/-
  The negative-Pearson loss kernel against its jnp reference.

  Both programs take two arrays of 512 x 4 rows of 16384 samples and return one number: the mean, over the 2048 rows, of
  1 − r² where r ≥ 0 and 1 + r² elsewhere, r the row's Pearson correlation computed from the five sums Σx, Σy, Σxy, Σx², Σy²
  (Proof/Spec.lean states this function).  The kernel flattens the first two axes, computes the 2048 row losses in 32
  blocks of 64 rows and lets the host average them; the reference reduces over the last axis in place and averages over
  the first two.  On the extended reals every step of the two is the same operation on the same operands, except for the
  arrangement of the final sum: over r = 4·b + c in the kernel, over (b, c) in the reference, one sum by commutativity
  and associativity of addition.  No step needs the inputs to be finite.

  The idealization rewrote no operation, so the idealized kernel is the kernel's own text and that conjunct is trivial.  The
  two kernels' frames are the generated ones; the reference's frame is its generated run with the result dropped.
-/
import proofs.«161521_j25726854103345_2_alg».proof.Defs
import proofs.«161521_j25726854103345_2_alg».proof.Proof.Gen.Kernel
import proofs.«161521_j25726854103345_2_alg».proof.Proof.Gen.Kernel.Skeleton
import proofs.«161521_j25726854103345_2_alg».proof.Proof.Gen.Kernel.Launch
import proofs.«161521_j25726854103345_2_alg».proof.Proof.Gen.Kernel.Points
import proofs.«161521_j25726854103345_2_alg».proof.Proof.Gen.Kernel.Frame
import proofs.«161521_j25726854103345_2_alg».proof.Proof.Gen.KernelIdeal
import proofs.«161521_j25726854103345_2_alg».proof.Proof.Gen.KernelIdeal.Skeleton
import proofs.«161521_j25726854103345_2_alg».proof.Proof.Gen.KernelIdeal.Launch
import proofs.«161521_j25726854103345_2_alg».proof.Proof.Gen.KernelIdeal.Points
import proofs.«161521_j25726854103345_2_alg».proof.Proof.Gen.KernelIdeal.Frame
import proofs.«161521_j25726854103345_2_alg».proof.Proof.Gen.ReferenceIdeal
import proofs.«161521_j25726854103345_2_alg».proof.Proof.Gen.Pre_finite_inputs
import proofs.«161521_j25726854103345_2_alg».proof.Proof.Gen.ReferenceIdeal.Run
import proofs.«161521_j25726854103345_2_alg».proof.Proof.Gen.ReferenceIdeal.Read
import proofs.«161521_j25726854103345_2_alg».proof.Proof.KernelRun
import proofs.«161521_j25726854103345_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result buffer at the mean row loss of the (agreeing) arguments. -/
theorem algebraic : Cert.algebraic_KernelIdeal_ReferenceIdeal := by
  intro m ρ m' ρ' _ hagree
  refine ⟨fun c _ => Cert.NegPearson.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.NegPearson.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2]
  funext i
  exact Cert.NegPearson.Ref.stage_eq _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
